-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4 : Shape := ⟨1, ![4]⟩
abbrev S4x128x512 : Shape := ⟨3, ![4, 128, 512]⟩
abbrev S1024x512 : Shape := ⟨2, ![1024, 512]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x512 .f32) (main_arg1 : IVec S4 32) (main_arg2 : FVec F S4x128x512 .f32) (main_arg3 : IVec S4 32) (main_arg4 : FVec F S1024x512 .f32) (main_arg5 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x128x512 .f32 := Host.absf main_arg2
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x512 : Shape := ⟨3, ![4, 256, 512]⟩
abbrev S4 : Shape := ⟨1, ![4]⟩
abbrev S4x128x512 : Shape := ⟨3, ![4, 128, 512]⟩
abbrev S1024x512 : Shape := ⟨2, ![1024, 512]⟩
abbrev S1024 : Shape := ⟨1, ![1024]⟩
abbrev S512x1024 : Shape := ⟨2, ![512, 1024]⟩
abbrev S4x256x128x1024 : Shape := ⟨4, ![4, 256, 128, 1024]⟩
abbrev S1x16x512 : Shape := ⟨3, ![1, 16, 512]⟩
abbrev S1x128x512 : Shape := ⟨3, ![1, 128, 512]⟩
abbrev S1x16x128x1024 : Shape := ⟨4, ![1, 16, 128, 1024]⟩
abbrev S16x512 : Shape := ⟨2, ![16, 512]⟩
abbrev S128x512 : Shape := ⟨2, ![128, 512]⟩
abbrev S16x1x512 : Shape := ⟨3, ![16, 1, 512]⟩
abbrev S16x128x512 : Shape := ⟨3, ![16, 128, 512]⟩
abbrev S2048x512 : Shape := ⟨2, ![2048, 512]⟩
abbrev S2048x1024 : Shape := ⟨2, ![2048, 1024]⟩
abbrev S1x1024 : Shape := ⟨2, ![1, 1024]⟩
abbrev S16x128x1024 : Shape := ⟨3, ![16, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S4, .i32⟩
  | .hbm, ⟨2, _⟩ => ⟨S4x128x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S512x1024, .f32⟩
  | .hbm, ⟨7, _⟩ => ⟨S4x256x128x1024, .f32⟩
  | .local _ .vmem, ⟨0, _⟩ => ⟨S1x16x512, .f32⟩
  | .local _ .vmem, ⟨1, _⟩ => ⟨S1x16x512, .f32⟩
  | .local _ .vmem, ⟨2, _⟩ => ⟨S1x128x512, .f32⟩
  | .local _ .vmem, ⟨3, _⟩ => ⟨S1x128x512, .f32⟩
  | .local _ .vmem, ⟨4, _⟩ => ⟨S512x1024, .f32⟩
  | .local _ .vmem, ⟨5, _⟩ => ⟨S1024, .f32⟩
  | .local _ .vmem, ⟨6, _⟩ => ⟨S1x16x128x1024, .f32⟩
  | .local _ .vmem, ⟨7, _⟩ => ⟨S1x16x128x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S16x512_S16x1x512 : S16x512.ShapeCasts S16x1x512
  shapeCasts_S128x512_S1x128x512 : S128x512.ShapeCasts S1x128x512
  broadcasts_S16x1x512_S16x128x512 : S16x1x512.Broadcasts S16x128x512
  broadcasts_S1x128x512_S16x128x512 : S1x128x512.Broadcasts S16x128x512
  shapeCasts_S16x128x512_S2048x512 : S16x128x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S2048x1024_S16x128x1024 : S2048x1024.ShapeCasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .f32 = 32 ∨ (Rect.block (s := S4x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .f32 = 32 ∨ (Rect.block (s := S4x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x1024.size a ≤ S4x256x128x1024.size a
  hwx0_4 : ∀ i : grid0.Coords, EltTy.bits .f32 = 32 ∨ (Rect.block (s := S4x256x128x1024) S1x16x128x1024.size (cc0_transform_4 i) (hinb0_4 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4 : Shape := ⟨1, ![4]⟩
abbrev S4x128x512 : Shape := ⟨3, ![4, 128, 512]⟩
abbrev S1024x512 : Shape := ⟨2, ![1024, 512]⟩
abbrev S1024 : Shape := ⟨1, ![1024]⟩
abbrev S4x256x1x512 : Shape := ⟨4, ![4, 256, 1, 512]⟩
abbrev S4x1x128x512 : Shape := ⟨4, ![4, 1, 128, 512]⟩
abbrev S4x256x128x512 : Shape := ⟨4, ![4, 256, 128, 512]⟩
abbrev S_ : Shape := ⟨0, ![]⟩
abbrev S4x256x128x1024 : Shape := ⟨4, ![4, 256, 128, 1024]⟩
abbrev S1x1x1x1024 : Shape := ⟨4, ![1, 1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4, .i32⟩
  | .hbm, ⟨2, _⟩ => ⟨S4x128x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S4x256x1x512, .f32⟩
  | .hbm, ⟨7, _⟩ => ⟨S4x1x128x512, .f32⟩
  | .hbm, ⟨8, _⟩ => ⟨S4x256x128x512, .f32⟩
  | .hbm, ⟨9, _⟩ => ⟨S4x256x128x512, .f32⟩
  | .hbm, ⟨10, _⟩ => ⟨S4x256x128x512, .f32⟩
  | .hbm, ⟨11, _⟩ => ⟨S_, .f32⟩
  | .hbm, ⟨12, _⟩ => ⟨S4x256x128x512, .f32⟩
  | .hbm, ⟨13, _⟩ => ⟨S4x256x128x512, .f32⟩
  | .hbm, ⟨14, _⟩ => ⟨S4x256x128x1024, .f32⟩
  | .hbm, ⟨15, _⟩ => ⟨S1x1x1x1024, .f32⟩
  | .hbm, ⟨16, _⟩ => ⟨S4x256x128x1024, .f32⟩
  | .hbm, ⟨17, _⟩ => ⟨S4x256x128x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S4x256x512_S4x256x1x512_0_1_3 : S4x256x512.BroadcastsInDim S4x256x1x512 (![0, 1, 3] : Fin 3 → Fin S4x256x1x512.rank)
  bcast_S4x128x512_S4x1x128x512_0_2_3 : S4x128x512.BroadcastsInDim S4x1x128x512 (![0, 2, 3] : Fin 3 → Fin S4x1x128x512.rank)
  bcast_S4x256x1x512_S4x256x128x512_0_1_2_3 : S4x256x1x512.BroadcastsInDim S4x256x128x512 (![0, 1, 2, 3] : Fin 4 → Fin S4x256x128x512.rank)
  bcast_S4x1x128x512_S4x256x128x512_0_1_2_3 : S4x1x128x512.BroadcastsInDim S4x256x128x512 (![0, 1, 2, 3] : Fin 4 → Fin S4x256x128x512.rank)
  bcast_S_S4x256x128x512 : S_.BroadcastsInDim S4x256x128x512 (![] : Fin 0 → Fin S4x256x128x512.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  dot_S4x256x128x512_S1024x512_S4x256x128x1024_3_1_012_0_n_n_wf : DotDims.WF S4x256x128x512 S1024x512 S4x256x128x1024 [3] [1] [0, 1, 2] [0] [] []

variable [Facts₀]

def dot_S4x256x128x512_S1024x512_S4x256x128x1024_3_1_012_0_n_n : DotDims S4x256x128x512 S1024x512 S4x256x128x1024 where
  lhsContracting := [3]
  rhsContracting := [1]
  lhsNonContracting := [0, 1, 2]
  rhsNonContracting := [0]
  lhsBatch := []
  rhsBatch := []
  wf := dot_S4x256x128x512_S1024x512_S4x256x128x1024_3_1_012_0_n_n_wf

class Facts : Prop extends Facts₀ where

variable [Facts]
-- ==== Proof.Spec.lean ====
/-
  The joiner's result as one function of the argument arrays.

  With src of shape [4, 256, 512], tgt of shape [4, 128, 512], a weight matrix W of shape [1024, 512] and a bias of
  shape [1024], the entry (b, t, u, v) of the [4, 256, 128, 1024] result is

      (sum over k < 512 of  max (src (b, t, k) + tgt (b, u, k)) 0  *  W (v, k))  +  bias v

  over the extended reals: the two encodings added with the source spread along u and the target along t, the
  rectifier, the contraction of the last axis against the rows of W, the bias added.
-/
import Idealize.ShloMosaic.PureOps.Ideal
import Idealize.ShloMosaic.Lib.ValueIdx

noncomputable section

open scoped BigOperators

namespace Cert.Joiner

open Idealize.ShloMosaic Idealize.ShloMosaic.ValueIdx

/-- Entry (b, t, u, v) of the joiner's result: the rectified sum of row (b, t) of the source and row (b, u) of the
    target, contracted against row v of the weights, plus the bias at v. -/
def joint (src : FVec Ideal ⟨3, ![4, 256, 512]⟩ .f32) (tgt : FVec Ideal ⟨3, ![4, 128, 512]⟩ .f32)
    (W : FVec Ideal ⟨2, ![1024, 512]⟩ .f32) (bias : FVec Ideal ⟨1, ![1024]⟩ .f32) :
    FVec Ideal ⟨4, ![4, 256, 128, 1024]⟩ .f32 :=
  fun i => (∑ k : Fin 512, max (src (ix3 (i 0) (i 1) k) + tgt (ix3 (i 0) (i 2) k)) 0 * W (ix2 (i 3) k))
    + bias (ix1 (i 3))

end Cert.Joiner

end
-- ==== Proof.RefSpec.lean ====
/-
  The reference computes the joiner's specification.

  The reference spreads the source along a new axis of extent 128 and the target along a new axis of extent 256, adds
  them, takes the maximum with zero, contracts the last axis with the last axis of the weights and adds the bias spread
  over the three leading axes. Read at an index (b, t, u, v), stage by stage, this is the specification's entry: the two
  spreads read the source at (b, t, k) and the target at (b, u, k), the contraction pairs them with W (v, k), and the
  bias is read at v.
-/
import proofs.«148628_j37950331027631_2_alg».proof.Proof.Gen.ReferenceIdeal.Read
import proofs.«148628_j37950331027631_2_alg».proof.Proof.Spec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The reference's last stage is the specification of its four float arguments. -/
theorem stage_eq_joint (x0 : (⟨S4x256x512, .f32⟩ : BufTy).Contents (Elt Ideal))
    (x2 : (⟨S4x128x512, .f32⟩ : BufTy).Contents (Elt Ideal)) (x4 : (⟨S1024x512, .f32⟩ : BufTy).Contents (Elt Ideal))
    (x5 : (⟨S1024, .f32⟩ : BufTy).Contents (Elt Ideal)) :
    val_main_v9 (F := Ideal) x0 x2 x4 x5 = Cert.Joiner.joint x0 x2 x4 x5 := by
  funext i
  -- the composed index maps of the spreads and of the contraction, by coordinates
  have e0 : ∀ k : Fin 512, idx_main_v0 (idx_main_v2 (lidx_main_v6 i k)) = ix3 (i 0) (i 1) k := fun k =>
    funext fun a => by match a with | ⟨0, _⟩ => rfl | ⟨1, _⟩ => rfl | ⟨2, _⟩ => rfl
  have e1 : ∀ k : Fin 512, idx_main_v1 (idx_main_v3 (lidx_main_v6 i k)) = ix3 (i 0) (i 2) k := fun k =>
    funext fun a => by match a with | ⟨0, _⟩ => rfl | ⟨1, _⟩ => rfl | ⟨2, _⟩ => rfl
  have e2 : ∀ k : Fin 512, ridx_main_v6 i k = ix2 (i 3) k := fun k =>
    funext fun a => by match a with | ⟨0, _⟩ => rfl | ⟨1, _⟩ => rfl
  have e3 : idx_main_v7 (idx_main_v8 i) = ix1 (i 3) :=
    funext fun a => by match a with | ⟨0, _⟩ => rfl
  rw [val_main_v9_apply, val_main_v6_apply, val_main_v8_apply, val_main_v7_apply, e3]
  unfold Cert.Joiner.joint
  show (∑ k : Fin 512, _) + _ = (∑ k : Fin 512, _) + _
  congr 1
  refine Finset.sum_congr rfl fun k _ => ?_
  rw [val_main_v5_apply, val_main_v4_apply, val_main_v2_apply, val_main_v0_apply, val_main_v3_apply,
    val_main_v1_apply, val_main_call0_v0_apply, val_main_call0_cst_apply, e0, e1, e2]
  show max (_ + _) (Ideal.ofBits .f32 0x00000000#32) * _ = _
  rw [Ideal.ofBits_zero_f32]
  rfl

end Cert.ReferenceIdeal.RefValue

end
-- ==== Proof.LibMergeAxes.lean ====
/-
  Layout operations of rank-3 arrays read at an index given by coordinates.

  A middle unit axis added to a matrix ([a, b] seen as [a, 1, b]); a rank-3 array with one unit axis spread along that
  axis to [a, c, b] (the unit axis in the middle, or in front); and the two leading axes of an [a, c, b] array merged
  into one axis of extent n = a * c, or split again: row i * c + u of the merged array is row (i, u) of the rank-3
  one. Each lemma names the operand's index by coordinates, so that a chain of them leaves no arithmetic behind; the
  merged row is a variable p with the hypothesis p = i * c + u, and the merged extent n is a variable too, so the
  lemmas hold at any extents with n = a * c (for instance 2048 = 16 * 128).
-/
import Idealize.ShloMosaic.Lib.ValueIdx
import Idealize.ShloMosaic.Lib.Pipeline.Value

namespace Cert.LibMergeAxes

open Idealize.ShloMosaic Idealize.ShloMosaic.ValueIdx

variable {α : Type}

/-- An [a, b] matrix cast to [a, 1, b] reads, at (i, u, j), the matrix at (i, j), whatever the unit coordinate u. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array spread along its middle axis to [a, c, b] reads, at (i, u, j), the operand at (i, 0, j). -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (u : Fin c) (j : Fin b) :
    broadcastTo ⟨3, ![a, c, b]⟩ v h (ix3 i u j) = v (ix3 i (0 : Fin 1) j) := by
  refine broadcastTo_apply v h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, c, b] array spread along its leading axis to [a, c, b] reads, at (i, u, j), the operand at (0, u, j). -/
theorem broadcastTo_1cb_acb_apply {a c b : ℕ} (v : (⟨3, ![1, c, b]⟩ : Shape).Idx → α)
    (h : (⟨3, ![1, c, b]⟩ : Shape).Broadcasts ⟨3, ![a, c, b]⟩) (i : Fin a) (u : Fin c) (j : Fin b) :
    broadcastTo ⟨3, ![a, c, b]⟩ v h (ix3 i u j) = v (ix3 (0 : Fin 1) u j) := by
  refine broadcastTo_apply v h (ix3 i u j) (ix3 (0 : Fin 1) u j) fun ax => ?_
  match ax with
  | ⟨0, _⟩ => rfl
  | ⟨1, _⟩ =>
    show u.val = if c = 1 then 0 else u.val
    split
    · have := u.isLt; omega
    · rfl
  | ⟨2, _⟩ =>
    show j.val = if b = 1 then 0 else j.val
    split
    · have := j.isLt; omega
    · rfl

/-- An [a, c, b] array with its two leading axes merged into one of extent n reads, at (p, j) with p = i * c + u, the
    operand at (i, u, j). -/
theorem shapeCast_acb_nb_apply {a c b n : ℕ} (x : (⟨3, ![a, c, b]⟩ : Shape).Idx → α)
    (h : (⟨3, ![a, c, b]⟩ : Shape).ShapeCasts ⟨2, ![n, b]⟩) (i : Fin a) (u : Fin c) (j : Fin b) (p : Fin n)
    (hp : p.val = i.val * c + u.val) :
    shapeCast ⟨2, ![n, b]⟩ x h (ix2 p j) = x (ix3 i u j) :=
  shapeCast_apply x h _ _ (by
    rw [Shape.rowMajor_val_three, Shape.rowMajor_val_two]
    show (i.val * c + u.val) * b + j.val = p.val * b + j.val
    rw [hp])

/-- An [n, b] matrix whose rows are split into [a, c, b] reads, at (i, u, j), the matrix at (p, j) with p = i * c + u. -/
theorem shapeCast_nb_acb_apply {a c b n : ℕ} (x : (⟨2, ![n, b]⟩ : Shape).Idx → α)
    (h : (⟨2, ![n, b]⟩ : Shape).ShapeCasts ⟨3, ![a, c, b]⟩) (i : Fin a) (u : Fin c) (j : Fin b) (p : Fin n)
    (hp : p.val = i.val * c + u.val) :
    shapeCast ⟨3, ![a, c, b]⟩ x h (ix3 i u j) = x (ix2 p j) :=
  shapeCast_apply x h _ _ (by
    rw [Shape.rowMajor_val_three, Shape.rowMajor_val_two]
    show p.val * b + j.val = (i.val * c + u.val) * b + j.val
    rw [hp])

end Cert.LibMergeAxes
-- ==== Proof.Payload.lean ====
/-
  The kernel body's stored value, read at one entry.

  The body loads a [1, 16, 512] block of the source, a [1, 128, 512] block of the target, the whole [512, 1024] transposed
  weight matrix and the whole bias, and stores a [1, 16, 128, 1024] block. Row r of the source block is spread along a
  new axis of extent 128, row u of the target block along a new axis of extent 16, the two are added and rectified, the
  [16, 128, 512] result is flattened to 2048 rows (row r * 128 + u), multiplied into a zero accumulator with the
  [512, 1024] matrix, the bias is added to every row, and the 2048 rows are split again into [16, 128]. So the stored
  entry (0, r, u, v) is

      (sum over k < 512 of  max (x0 (0, r, k) + x1 (0, u, k)) 0  *  x2 (k, v))  +  x3 v.
-/
import proofs.«148628_j37950331027631_2_alg».proof.Proof.Gen.KernelIdeal.Skeleton
import proofs.«148628_j37950331027631_2_alg».proof.Proof.LibMergeAxes
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LibMergeAxes

/-! ## The matrix product at an entry -/

/-- The left operand is read on the result's row. -/
theorem lhs_row (j : S2048x1024.Idx) (q : dot_S2048x512_S512x1024_S2048x1024_1_0_0_1_n_n.contr.Idx) :
    (dot_S2048x512_S512x1024_S2048x1024_1_0_0_1_n_n.lhsIdx j q 0).val = (j 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl

/-- The left operand's column is the contraction index. -/
theorem lhs_contr (j : S2048x1024.Idx) (q : dot_S2048x512_S512x1024_S2048x1024_1_0_0_1_n_n.contr.Idx) :
    (dot_S2048x512_S512x1024_S2048x1024_1_0_0_1_n_n.lhsIdx j q 1).val = (q ⟨0, by decide⟩).val :=
  dot_S2048x512_S512x1024_S2048x1024_1_0_0_1_n_n.lhsIdx_val_of_single rfl j q

/-- The right operand's row is the contraction index. -/
theorem rhs_contr (j : S2048x1024.Idx) (q : dot_S2048x512_S512x1024_S2048x1024_1_0_0_1_n_n.contr.Idx) :
    (dot_S2048x512_S512x1024_S2048x1024_1_0_0_1_n_n.rhsIdx j q 0).val = (q ⟨0, by decide⟩).val :=
  dot_S2048x512_S512x1024_S2048x1024_1_0_0_1_n_n.rhsIdx_val_of_single rfl j q

/-- The right operand is read on the result's column. -/
theorem rhs_col (j : S2048x1024.Idx) (q : dot_S2048x512_S512x1024_S2048x1024_1_0_0_1_n_n.contr.Idx) :
    (dot_S2048x512_S512x1024_S2048x1024_1_0_0_1_n_n.rhsIdx j q 1).val = (j 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- A [2048, 512] matrix times a [512, 1024] matrix into the zero accumulator, at (p, v), is the sum over k of
    A (p, k) * B (k, v). -/
theorem matmul_at (A : FVec Ideal S2048x512 .f32) (B : FVec Ideal S512x1024 .f32) (p : Fin 2048) (v : Fin 1024) :
    matmul dot_S2048x512_S512x1024_S2048x1024_1_0_0_1_n_n (some .fp32) A B (constant (F := Ideal) S2048x1024 .f32 0x00000000#32) (ix2 p v)
      = ∑ k : Fin 512, A (ix2 p k) * B (ix2 k v) := by
  show FloatOps.matmul dot_S2048x512_S512x1024_S2048x1024_1_0_0_1_n_n (some .fp32) A B (constant (F := Ideal) S2048x1024 .f32 0x00000000#32) (ix2 p v) = _
  rw [Ideal.matmul_constant_zero_apply,
    ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p v) ((contrEquiv1 dot_S2048x512_S512x1024_S2048x1024_1_0_0_1_n_n 512 rfl rfl).symm k) = ix2 p k :=
    funext fun a => Fin.ext (by
      match a with
      | ⟨0, _⟩ => exact lhs_row _ _
      | ⟨1, _⟩ => exact (lhs_contr _ _).trans hk)
  have er : dot_S2048x512_S512x1024_S2048x1024_1_0_0_1_n_n.rhsIdx (ix2 p v) ((contrEquiv1 dot_S2048x512_S512x1024_S2048x1024_1_0_0_1_n_n 512 rfl rfl).symm k) = ix2 k v :=
    funext fun a => Fin.ext (by
      match a with
      | ⟨0, _⟩ => exact (rhs_contr _ _).trans hk
      | ⟨1, _⟩ => exact rhs_col _ _)
  rw [el, er]

/-! ## The stored value at an entry -/

/-- Entry (z, r, u, v) of what the body stores, from the four loaded blocks. -/
theorem pay_apply (x0 : FVec Ideal S1x16x512 .f32) (x1 : FVec Ideal S1x128x512 .f32) (x2 : FVec Ideal S512x1024 .f32)
    (x3 : FVec Ideal S1024 .f32) (z : Fin 1) (r : Fin 16) (u : Fin 128) (v : Fin 1024) :
    k0_pay1 (F := Ideal) x0 x1 x2 x3 (ix4 z r u v)
      = (∑ k : Fin 512, max (x0 (ix3 (0 : Fin 1) r k) + x1 (ix3 (0 : Fin 1) u k)) 0 * x2 (ix2 k v)) + x3 (ix1 v) := by
  have hr : r.val < 16 := r.isLt
  have hu : u.val < 128 := u.isLt
  -- the flattened row of (r, u)
  obtain ⟨p, hp⟩ : ∃ p : Fin 2048, p.val = r.val * 128 + u.val := ⟨⟨r.val * 128 + u.val, by omega⟩, rfl⟩
  unfold k0_pay1
  -- the two outer casts: the leading unit axis, and the 2048 rows split into [16, 128]
  refine (shapeCast_abc_1abc_apply _ _ z r u v).trans ?_
  refine (shapeCast_nb_acb_apply _ _ r u v p hp).trans ?_
  refine (addf_apply _ _ _).trans ?_
  refine congrArg₂ (· + ·) ?_ ?_
  · -- the product
    refine (matmul_at _ _ p v).trans ?_
    refine Finset.sum_congr rfl fun k _ => ?_
    refine congrArg₂ (· * ·) ?_ ?_
    · -- the left factor: row p of the flattened rectified sum is entry (r, u, ·)
      refine (shapeCast_acb_nb_apply _ _ r u k p hp).trans ?_
      refine (maximumf_apply _ _ _).trans ?_
      refine congrArg₂ max ?_ ?_
      · refine (addf_apply _ _ _).trans ?_
        refine congrArg₂ (· + ·) ?_ ?_
        · refine (broadcastTo_a1b_acb_apply _ _ r u k).trans ?_
          refine (shapeCast_ab_a1b_apply _ _ r (0 : Fin 1) k).trans ?_
          exact shapeCast_1ab_ab_apply _ _ r k
        · refine (broadcastTo_1cb_acb_apply _ _ r u k).trans ?_
          refine (shapeCast_ab_1ab_apply _ _ (0 : Fin 1) u k).trans ?_
          exact shapeCast_1ab_ab_apply _ _ u k
      · show Ideal.ofBits .f32 0x00000000#32 = 0
        exact Ideal.ofBits_zero_f32
    · -- the right factor: the loaded matrix itself
      exact congrFun (shapeCast_self _ _) _
  · -- the bias row, spread over the 2048 rows
    refine (broadcastTo_1b_ab_apply _ _ p v).trans ?_
    exact shapeCast_a_1a_apply _ _ (0 : Fin 1) v

end Cert.KernelIdeal.Body

end
-- ==== Proof.Whole.lean ====
/-
  From the blocks the grid points write to the whole result array.

  The grid is [4, 16]: point (b, s) reads rows 16 s … 16 s + 15 of batch b of the source, all of batch b of the target,
  the whole transposed weight matrix and the whole bias, and writes the [1, 16, 128, 1024] block at batch b, rows
  16 s … 16 s + 15 of the result. The transposed weights are W read at (v, k) for (k, v). So by the body's stored
  value at an entry, the block a point writes is that block of the specification of the four argument arrays; the 64
  blocks fill the [4, 256, 128, 1024] array (the point for row t of batch b is (b, t / 16)), hence the array ends
  holding the specification.
-/
import proofs.«148628_j37950331027631_2_alg».proof.Proof.Gen.KernelIdeal.Value
import proofs.«148628_j37950331027631_2_alg».proof.Proof.Payload
import proofs.«148628_j37950331027631_2_alg».proof.Proof.Spec
import Idealize.ShloMosaic.Lib.ValueLayout
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The arrays as the region finds them -/

/-- The third window's array is the weight matrix transposed. -/
theorem V_wt (c : Dev nD) :
    (V m c main_v0 : S512x1024.Idx → EReal)
      = transpose S512x1024 [1, 0] (m ((c : Thread nD τ).loc main_arg4)) transposes_S1024x512_S512x1024_1_0 := by
  dsimp only [Gen.V, Gen.hostOps0]
  after_results

/-! ## Where the windows' blocks sit, decided over the 64 grid points -/

/-- The source block moves with the result block on the batch and row axes, the target block on the batch axis; every
    other block index is zero. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (2 : Fin 4) = 0
    ∧ win0_4.index t (3 : Fin 4) = 0
    ∧ win0_4.index t (0 : Fin 4) ≤ 3
    ∧ win0_4.index t (1 : Fin 4) ≤ 15 :=
  (by decide +kernel : ∀ t : Fin grid0.N, _)

/-- Every (batch, row tile) pair is some point's result block. -/
theorem idx_onto : ∀ (q0 : Fin 4) (q1 : Fin 16), ∃ t : Fin cfg0.N, win0_4.index t = ![q0.val, q1.val, 0, 0] :=
  (by decide +kernel : ∀ (q0 : Fin 4) (q1 : Fin 16), ∃ t : Fin grid0.N, win0_4.index t = ![q0.val, q1.val, 0, 0])

/-! ## The input blocks read at an entry -/

/-- Entry (0, r, k) of the source block at point t is the source at the block's offsets plus (r, k). -/
theorem src_blk (c : Dev nD) (t : Fin cfg0.N) (r : Fin 16) (k : Fin 512) (i : S4x256x512.Idx)
    (h0 : (i 0).val = win0_0.index t (0 : Fin 3)) (h1 : (i 1).val = win0_0.index t (1 : Fin 3) * 16 + r.val)
    (h2 : (i 2).val = win0_0.index t (2 : Fin 3) * 512 + k.val) :
    (iblk m c 0 t : FVec Ideal S1x16x512 .f32) (ix3 (0 : Fin 1) r k) = ((m ((c : Thread nD τ).loc main_arg0)) : S4x256x512.Idx → EReal) i := by
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (0 : Fin 1).val = (i 0).val; rw [h0]; simp
  | ⟨1, _⟩ => show win0_0.index t (1 : Fin 3) * 16 + 1 * r.val = (i 1).val; rw [h1]; omega
  | ⟨2, _⟩ => show win0_0.index t (2 : Fin 3) * 512 + 1 * k.val = (i 2).val; rw [h2]; omega

/-- Entry (0, u, k) of the target block at point t is the target at the block's offsets plus (u, k). -/
theorem tgt_blk (c : Dev nD) (t : Fin cfg0.N) (u : Fin 128) (k : Fin 512) (i : S4x128x512.Idx)
    (h0 : (i 0).val = win0_1.index t (0 : Fin 3)) (h1 : (i 1).val = win0_1.index t (1 : Fin 3) * 128 + u.val)
    (h2 : (i 2).val = win0_1.index t (2 : Fin 3) * 512 + k.val) :
    (iblk m c 1 t : FVec Ideal S1x128x512 .f32) (ix3 (0 : Fin 1) u k) = ((m ((c : Thread nD τ).loc main_arg2)) : S4x128x512.Idx → EReal) i := by
  unfold iblk
  rw [View.read_apply]
  show V m c main_arg2 _ = m (c.tc.loc main_arg2) _
  rw [V_main_arg2]
  congr 1
  funext a
  apply Fin.ext
  match a with
  | ⟨0, _⟩ => show win0_1.index t (0 : Fin 3) * 1 + 1 * (0 : Fin 1).val = (i 0).val; rw [h0]; simp
  | ⟨1, _⟩ => show win0_1.index t (1 : Fin 3) * 128 + 1 * u.val = (i 1).val; rw [h1]; omega
  | ⟨2, _⟩ => show win0_1.index t (2 : Fin 3) * 512 + 1 * k.val = (i 2).val; rw [h2]; omega

/-- Entry (k, v) of the weight block (the whole transposed matrix) is the weight matrix at (v, k). -/
theorem wt_blk (c : Dev nD) (t : Fin cfg0.N) (k : Fin 512) (v : Fin 1024)
    (h0 : win0_2.index t (0 : Fin 2) = 0) (h1 : win0_2.index t (1 : Fin 2) = 0) :
    (iblk m c 2 t : FVec Ideal S512x1024 .f32) (ix2 k v) = ((m ((c : Thread nD τ).loc main_arg4)) : S1024x512.Idx → EReal) (ix2 v k) := by
  unfold iblk
  rw [View.read_apply]
  show (V m c main_v0 : S512x1024.Idx → EReal) _ = _
  rw [V_wt]
  refine Eq.trans (congrArg _ ?_) (transpose_ix2_apply _ _ k v)
  funext a
  apply Fin.ext
  match a with
  | ⟨0, _⟩ => show win0_2.index t (0 : Fin 2) * 512 + 1 * k.val = k.val; rw [h0]; omega
  | ⟨1, _⟩ => show win0_2.index t (1 : Fin 2) * 1024 + 1 * v.val = v.val; rw [h1]; omega

/-- Entry v of the bias block (the whole bias) is the bias at v. -/
theorem bias_blk (c : Dev nD) (t : Fin cfg0.N) (v : Fin 1024) (h0 : win0_3.index t (0 : Fin 1) = 0) :
    (iblk m c 3 t : FVec Ideal S1024 .f32) (ix1 v) = ((m ((c : Thread nD τ).loc main_arg5)) : S1024.Idx → EReal) (ix1 v) := by
  unfold iblk
  rw [View.read_apply]
  show V m c main_arg5 _ = m (c.tc.loc main_arg5) _
  rw [V_main_arg5]
  congr 1
  funext a
  apply Fin.ext
  match a with
  | ⟨0, _⟩ => show win0_3.index t (0 : Fin 1) * 1024 + 1 * v.val = v.val; rw [h0]; omega

/-! ## What a point writes -/

/-- The body's stored value at (z, r, u, v) is the specification at an index i, when the loaded blocks are the rows of the
    arguments that i names. -/
theorem block_entry (x0 : FVec Ideal S1x16x512 .f32) (x1 : FVec Ideal S1x128x512 .f32) (x2 : FVec Ideal S512x1024 .f32)
    (x3 : FVec Ideal S1024 .f32) (src : FVec Ideal ⟨3, ![4, 256, 512]⟩ .f32) (tgt : FVec Ideal ⟨3, ![4, 128, 512]⟩ .f32)
    (W : FVec Ideal ⟨2, ![1024, 512]⟩ .f32) (bias : FVec Ideal ⟨1, ![1024]⟩ .f32)
    (z : Fin 1) (r : Fin 16) (u : Fin 128) (v : Fin 1024) (i : (⟨4, ![4, 256, 128, 1024]⟩ : Shape).Idx)
    (h0 : ∀ k : Fin 512, x0 (ix3 (0 : Fin 1) r k) = src (ix3 (i 0) (i 1) k))
    (h1 : ∀ k : Fin 512, x1 (ix3 (0 : Fin 1) u k) = tgt (ix3 (i 0) (i 2) k))
    (h2 : ∀ k : Fin 512, x2 (ix2 k v) = W (ix2 (i 3) k))
    (h3 : x3 (ix1 v) = bias (ix1 (i 3))) :
    k0_pay1 (F := Ideal) x0 x1 x2 x3 (ix4 z r u v) = Cert.Joiner.joint src tgt W bias i := by
  rw [Cert.KernelIdeal.Body.pay_apply]
  unfold Cert.Joiner.joint
  refine congrArg₂ (· + ·) (Finset.sum_congr rfl fun k _ => ?_) h3
  rw [h0 k, h1 k, h2 k]

/-- Point t writes back its block of the specification of the four argument arrays. -/
theorem flushed_eq (c : Dev nD) (t : Fin cfg0.N) :
    (dats m 0 c).flushed 4 t = ((cfg0.win 4).blk t).view.read (Elt Ideal) (Cert.Joiner.joint (m ((c : Thread nD τ).loc main_arg0)) (m ((c : Thread nD τ).loc main_arg2)) (m ((c : Thread nD τ).loc main_arg4)) (m ((c : Thread nD τ).loc main_arg5))) := by
  rw [flushed4]
  unfold out0_4
  rw [View.canon_unit_zero hz4]
  simp only [View.ld_unit_zero (S := S1x16x512) hz3, View.ld_unit_zero (S := S1x128x512) hz3,
    View.ld_unit_zero (S := S512x1024) hz2, View.ld_unit_zero (S := S1024) hz1]
  obtain ⟨e00, e01, e02, e10, e11, e12, e20, e21, e30, e42, e43, b0, b1⟩ := idx_facts t
  funext y
  obtain ⟨z, r, u, v, rfl⟩ : ∃ (z : Fin 1) (r : Fin 16) (u : Fin 128) (v : Fin 1024), y = ix4 z r u v :=
    ⟨y 0, y 1, y 2, y 3, eq_ix4 y⟩
  have hz : z.val = 0 := by omega
  show k0_pay1 (F := Ideal) (iblk m c 0 t) (iblk m c 1 t) (iblk m c 2 t) (iblk m c 3 t) (ix4 z r u v)
    = Cert.Joiner.joint (m ((c : Thread nD τ).loc main_arg0)) (m ((c : Thread nD τ).loc main_arg2)) (m ((c : Thread nD τ).loc main_arg4)) (m ((c : Thread nD τ).loc main_arg5)) (((cfg0.win 4).blk t).view.emb (ix4 z r u v))
  -- the array index under entry (z, r, u, v) of the block
  have I0 : ((((cfg0.win 4).blk t).view.emb (ix4 z r u v)) 0).val = win0_4.index t (0 : Fin 4) * 1 + 1 * z.val := rfl
  have I1 : ((((cfg0.win 4).blk t).view.emb (ix4 z r u v)) 1).val = win0_4.index t (1 : Fin 4) * 16 + 1 * r.val := rfl
  have I2 : ((((cfg0.win 4).blk t).view.emb (ix4 z r u v)) 2).val = win0_4.index t (2 : Fin 4) * 128 + 1 * u.val := rfl
  have I3 : ((((cfg0.win 4).blk t).view.emb (ix4 z r u v)) 3).val = win0_4.index t (3 : Fin 4) * 1024 + 1 * v.val := rfl
  refine block_entry _ _ _ _ _ _ _ _ z r u v _ (fun k => ?_) (fun k => ?_) (fun k => ?_) ?_
  · refine src_blk m c t r k _ ?_ ?_ ?_
    · show ((((cfg0.win 4).blk t).view.emb (ix4 z r u v)) 0).val = _; omega
    · show ((((cfg0.win 4).blk t).view.emb (ix4 z r u v)) 1).val = _; omega
    · show k.val = _; omega
  · refine tgt_blk m c t u k _ ?_ ?_ ?_
    · show ((((cfg0.win 4).blk t).view.emb (ix4 z r u v)) 0).val = _; omega
    · show ((((cfg0.win 4).blk t).view.emb (ix4 z r u v)) 2).val = _; omega
    · show k.val = _; omega
  · have hv : (((cfg0.win 4).blk t).view.emb (ix4 z r u v)) 3 = v := Fin.ext (by rw [I3]; omega)
    rw [hv]
    exact wt_blk m c t k v e20 e21
  · have hv : (((cfg0.win 4).blk t).view.emb (ix4 z r u v)) 3 = v := Fin.ext (by rw [I3]; omega)
    rw [hv]
    exact bias_blk m c t v e30

/-! ## The blocks fill the array -/

/-- An index is in point t's result block iff every coordinate is in the block's range on its axis. -/
theorem mem_blk (t : Fin cfg0.N) (i : S4x256x128x1024.Idx) :
    i ∈ ((cfg0.win 4).blk t).view.set ↔ ∀ a : Fin 4, win0_4.index t a * S1x16x128x1024.size a ≤ (i a).val
      ∧ (i a).val < win0_4.index t a * S1x16x128x1024.size a + S1x16x128x1024.size a := by
  show i ∈ ((View.whole main_v1).slice (win0_4.rect t)).set ↔ _
  rw [View.set_slice_whole, Rect.mem_set_unit]
  exact Iff.rfl

/-- Every index of the result is in the block of the point for its batch and its row's tile. -/
theorem cover (i : S4x256x128x1024.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 128 := (i 2).isLt
  have hi3 : (i 3).val < 1024 := (i 3).isLt
  obtain ⟨t, ht⟩ := idx_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 16 ≤ (i 1).val ∧ (i 1).val < win0_4.index t (1 : Fin 4) * 16 + 16
    omega
  | ⟨2, _⟩ =>
    show win0_4.index t (2 : Fin 4) * 128 ≤ (i 2).val ∧ (i 2).val < win0_4.index t (2 : Fin 4) * 128 + 128
    omega
  | ⟨3, _⟩ =>
    show win0_4.index t (3 : Fin 4) * 1024 ≤ (i 3).val ∧ (i 3).val < win0_4.index t (3 : Fin 4) * 1024 + 1024
    omega

/-- The result array after the run is the specification of the four argument arrays. -/
theorem final (c : Dev nD) : (dats m 0 c).arrAt 4 cfg0.N = Cert.Joiner.joint (m ((c : Thread nD τ).loc main_arg0)) (m ((c : Thread nD τ).loc main_arg2)) (m ((c : Thread nD τ).loc main_arg4)) (m ((c : Thread nD τ).loc main_arg5)) :=
  (dats m 0 c).arrAt_eq_of_cover 4 (Cert.Joiner.joint (m ((c : Thread nD τ).loc main_arg0)) (m ((c : Thread nD τ).loc main_arg2)) (m ((c : Thread nD τ).loc main_arg4)) (m ((c : Thread nD τ).loc main_arg5))) (fun t _ => flushed_eq m c t) cover

/-! ## The run, read -/

/-- Every weakly fair execution of the kernel's program terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v1) = Cert.Joiner.joint (m ((c : Thread nD τ).loc main_arg0)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  The joiner kernel against its reference, over the extended reals.

  Both programs compute, at entry (b, t, u, v) of a [4, 256, 128, 1024] array,

      (sum over k < 512 of  max (src (b, t, k) + tgt (b, u, k)) 0  *  W (v, k))  +  bias v

  (Proof/Spec.lean). The kernel does it block by block on a [4, 16] grid: each point rectifies the sum of 16 source rows
  spread against 128 target rows, multiplies the 2048 flattened rows with the transposed weights into a zero accumulator
  and adds the bias (Proof/Payload.lean: the stored value at an entry; Proof/Whole.lean: the blocks fill the array, and
  the transposed weights are W read at (v, k)). The reference does it on whole arrays with a contraction of the last
  axes (Proof/RefSpec.lean). The two sums are over the same index in the same order with the same factors, so no law
  of the extended reals beyond reading each side at an index is used, and the inputs' finiteness is never opened.

  The three frames are the programs' runs with the result dropped; the idealization rewrote nothing, so the kernel's
  idealized program is its own text read over the extended reals.
-/
import proofs.«148628_j37950331027631_2_alg».proof.Defs
import proofs.«148628_j37950331027631_2_alg».proof.Proof.Gen.Kernel
import proofs.«148628_j37950331027631_2_alg».proof.Proof.Gen.Kernel.Skeleton
import proofs.«148628_j37950331027631_2_alg».proof.Proof.Gen.Kernel.Launch
import proofs.«148628_j37950331027631_2_alg».proof.Proof.Gen.Kernel.Points
import proofs.«148628_j37950331027631_2_alg».proof.Proof.Gen.Kernel.Frame
import proofs.«148628_j37950331027631_2_alg».proof.Proof.Gen.KernelIdeal
import proofs.«148628_j37950331027631_2_alg».proof.Proof.Gen.KernelIdeal.Skeleton
import proofs.«148628_j37950331027631_2_alg».proof.Proof.Gen.KernelIdeal.Launch
import proofs.«148628_j37950331027631_2_alg».proof.Proof.Gen.KernelIdeal.Points
import proofs.«148628_j37950331027631_2_alg».proof.Proof.Gen.KernelIdeal.Frame
import proofs.«148628_j37950331027631_2_alg».proof.Proof.Gen.ReferenceIdeal
import proofs.«148628_j37950331027631_2_alg».proof.Proof.Gen.Pre_finite_inputs
import proofs.«148628_j37950331027631_2_alg».proof.Proof.Gen.KernelIdeal.Value
import proofs.«148628_j37950331027631_2_alg».proof.Proof.Gen.ReferenceIdeal.Run
import proofs.«148628_j37950331027631_2_alg».proof.Proof.Gen.ReferenceIdeal.Read
import proofs.«148628_j37950331027631_2_alg».proof.Proof.RefSpec
import proofs.«148628_j37950331027631_2_alg».proof.Proof.Whole
import Idealize.ShloMosaic.Adequacy
import Idealize.ShloMosaic.Init

noncomputable section

namespace Cert.Proof

open Idealize.ShloMosaic Idealize.SL.Sem

/-- The kernel's program runs, faults nowhere and leaves its arguments as they were. -/
theorem frame_kernel : Cert.frame_Kernel := fun m ρ _ => Cert.Kernel.Gen.frame m ρ

/-- The same for the kernel's program read over the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The idealization rewrote nothing. -/
theorem preserves : Cert.preserves_Kernel_KernelIdeal := trivial

/-- From memories that agree on the arguments, the kernel's result array and the reference's both end at the
    specification of the four float arguments, and the two integer arguments pass through both programs unchanged. -/
theorem algebraic : Cert.algebraic_KernelIdeal_ReferenceIdeal := by
  intro m ρ m' ρ' _ hagree
  refine ⟨fun c => Cert.Joiner.joint (m ((c.tc : Thread _ _).loc Cert.KernelIdeal.main_arg0))
      (m ((c.tc : Thread _ _).loc Cert.KernelIdeal.main_arg2)) (m ((c.tc : Thread _ _).loc Cert.KernelIdeal.main_arg4))
      (m ((c.tc : Thread _ _).loc Cert.KernelIdeal.main_arg5)),
    fun c => m ((c.tc : Thread _ _).loc Cert.KernelIdeal.main_arg1),
    fun c => m ((c.tc : Thread _ _).loc Cert.KernelIdeal.main_arg3), ?_, ?_⟩
  · refine (θ_run Cert.KernelIdeal.defs _ _).mono (fun _ h c => ?_) (Cert.KernelIdeal.Whole.run m ρ)
    obtain ⟨h1, h2, h3, h4, h5, h6, h7⟩ := h c
    exact ⟨h1, h3, h5, h2, h3, h4, h5, h6, h7⟩
  · refine (θ_run Cert.ReferenceIdeal.defs _ _).mono (fun _ h c => ?_)
      (Cert.ReferenceIdeal.Value.run (F := Ideal) m' ρ')
    obtain ⟨h1, h2, h3, h4⟩ := h c
    obtain ⟨a0, a1, a2, a3, a4, a5⟩ := hagree c
    refine ⟨?_, h2.trans a1, h3.trans a3, h4⟩
    rw [h1, Cert.ReferenceIdeal.Read.val_main_v9_eq, Cert.ReferenceIdeal.RefValue.stage_eq_joint, a0, a2, a4, a5]

end Cert.Proof

/-- Every claim of the certificate, under the programs' proved side conditions. -/
theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
